-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel

variable [Facts]

def fn {F : FTy → Type} [FloatOps F] (main_arg0 : FVec F S4x2048x768 .f32) (main_arg1 : FVec F S4x2048x768 .f32) (main_arg2 : FVec F S4x2048x768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S4x2048x768 .f32 := Host.absf main_arg1
  let main_cst_0 : FVec F S_ .f32 := constant S_ .f32 0x7F800000#32
  let main_v5 : FVec F S4x2048x768 .f32 := broadcastInDim S4x2048x768 ![] bcast_S_S4x2048x768 main_cst_0
  let main_v6 : IVec S4x2048x768 1 := cmpf .olt main_v4 main_v5
  let main_c_1 : IVec S_ 1 := constantI S_ 1 1#1
  let main_v7 : IVec S_ 1 := (fun x v => Host.reduce IntOp.andi x v reducesTo_S4x2048x768_S_d0_1_2 h_S_) main_v6 main_c_1
  let main_v8 : IVec S_ 1 := andi main_v3 main_v7
  let main_v9 : FVec F S4x2048x768 .f32 := Host.absf main_arg2
  let main_cst_2 : FVec F S_ .f32 := constant S_ .f32 0x7F800000#32
  let main_v10 : FVec F S4x2048x768 .f32 := broadcastInDim S4x2048x768 ![] bcast_S_S4x2048x768 main_cst_2
  let main_v11 : IVec S4x2048x768 1 := cmpf .olt main_v9 main_v10
  let main_c_3 : IVec S_ 1 := constantI S_ 1 1#1
  let main_v12 : IVec S_ 1 := (fun x v => Host.reduce IntOp.andi x v reducesTo_S4x2048x768_S_d0_1_2 h_S_) main_v11 main_c_3
  let main_v13 : IVec S_ 1 := andi main_v8 main_v12
  main_v13
-- ==== Kernel.lean ====
abbrev S4x2048x768 : Shape := ⟨3, ![4, 2048, 768]⟩
abbrev S1x512x256 : Shape := ⟨3, ![1, 512, 256]⟩
abbrev S1x2048x256 : Shape := ⟨3, ![1, 2048, 256]⟩
abbrev S2048x256 : Shape := ⟨2, ![2048, 256]⟩
abbrev S512x256 : Shape := ⟨2, ![512, 256]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S4x2048x768, .f32⟩
  | .hbm, ⟨3, _⟩ => ⟨S4x2048x768, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x512x256, .f32⟩
  | .local _ .vmem, ⟨7, _⟩ => ⟨S1x512x256, .f32⟩
  | .local _ .vmem, ⟨8, _⟩ => ⟨S2048x256, .bf16⟩
  | .local _ .vmem, ⟨9, _⟩ => ⟨S2048x256, .bf16⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 3, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  slices_S512x256_o0_0_S512x64 : S512x256.Slices ![0, 0] S512x64
  slices_S2048x256_o0_0_S2048x64 : S2048x256.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x256_o0_64_S512x64 : S512x256.Slices ![0, 64] S512x64
  slices_S2048x256_o0_64_S2048x64 : S2048x256.Slices ![0, 64] S2048x64
  slices_S512x256_o0_128_S512x64 : S512x256.Slices ![0, 128] S512x64
  slices_S2048x256_o0_128_S2048x64 : S2048x256.Slices ![0, 128] S2048x64
  slices_S512x256_o0_192_S512x64 : S512x256.Slices ![0, 192] S512x64
  slices_S2048x256_o0_192_S2048x64 : S2048x256.Slices ![0, 192] S2048x64
  concatenates_S512x64_S512x64_S512x64_S512x64_S512x256_d1 : Shape.Concatenates [S512x64, S512x64, S512x64, S512x64] S512x256 1
  shapeCasts_S512x256_S1x512x256 : S512x256.ShapeCasts S1x512x256
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x2048x768.size a
  hwx0_0 : ∀ i : grid0.Coords, EltTy.bits .f32 = 32 ∨ (Rect.block (s := S4x2048x768) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x2048x768.size a
  hwx0_1 : ∀ i : grid0.Coords, EltTy.bits .f32 = 32 ∨ (Rect.block (s := S4x2048x768) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S4x2048x768.size a
  hwx0_2 : ∀ i : grid0.Coords, EltTy.bits .f32 = 32 ∨ (Rect.block (s := S4x2048x768) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S4x2048x768.size a
  hwx0_3 : ∀ i : grid0.Coords, EltTy.bits .f32 = 32 ∨ (Rect.block (s := S4x2048x768) S1x512x256.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg1) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S4x2048x12x64 : Shape := ⟨4, ![4, 2048, 12, 64]⟩
abbrev S4x12x2048x64 : Shape := ⟨4, ![4, 12, 2048, 64]⟩
abbrev S_ : Shape := ⟨0, ![]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S4x2048x768, .f32⟩
  | .hbm, ⟨3, _⟩ => ⟨S4x2048x12x64, .f32⟩
  | .hbm, ⟨4, _⟩ => ⟨S4x12x2048x64, .f32⟩
  | .hbm, ⟨5, _⟩ => ⟨S4x2048x12x64, .f32⟩
  | .hbm, ⟨6, _⟩ => ⟨S4x12x2048x64, .f32⟩
  | .hbm, ⟨7, _⟩ => ⟨S4x2048x12x64, .f32⟩
  | .hbm, ⟨8, _⟩ => ⟨S4x12x2048x64, .f32⟩
  | .hbm, ⟨9, _⟩ => ⟨S_, .f32⟩
  | .hbm, ⟨10, _⟩ => ⟨S4x12x2048x64, .f32⟩
  | .hbm, ⟨11, _⟩ => ⟨S4x12x2048x64, .f32⟩
  | .hbm, ⟨12, _⟩ => ⟨S4x12x2048x2048, .f32⟩
  | .hbm, ⟨13, _⟩ => ⟨S_, .f32⟩
  | .hbm, ⟨14, _⟩ => ⟨S4x12x2048, .f32⟩
  | .hbm, ⟨15, _⟩ => ⟨S4x12x2048x1, .f32⟩
  | .hbm, ⟨16, _⟩ => ⟨S4x12x2048x2048, .f32⟩
  | .hbm, ⟨17, _⟩ => ⟨S4x12x2048x2048, .f32⟩
  | .hbm, ⟨18, _⟩ => ⟨S4x12x2048x2048, .f32⟩
  | .hbm, ⟨19, _⟩ => ⟨S4x12x2048x64, .f32⟩
  | .hbm, ⟨20, _⟩ => ⟨S_, .f32⟩
  | .hbm, ⟨21, _⟩ => ⟨S4x12x2048, .f32⟩
  | .hbm, ⟨22, _⟩ => ⟨S4x12x2048x1, .f32⟩
  | .hbm, ⟨23, _⟩ => ⟨S_, .f32⟩
  | .hbm, ⟨24, _⟩ => ⟨S4x12x2048x1, .f32⟩
  | .hbm, ⟨25, _⟩ => ⟨S4x12x2048x1, .f32⟩
  | .hbm, ⟨26, _⟩ => ⟨S4x12x2048x64, .f32⟩
  | .hbm, ⟨27, _⟩ => ⟨S4x12x2048x64, .f32⟩
  | .hbm, ⟨28, _⟩ => ⟨S4x2048x12x64, .f32⟩
  | .hbm, ⟨29, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x64 : S_.BroadcastsInDim S4x12x2048x64 (![] : Fin 0 → Fin S4x12x2048x64.rank)
  reducesTo_S4x12x2048x2048_S4x12x2048_d3 : S4x12x2048x2048.ReducesTo [3] S4x12x2048
  h_S_ : 0 < S_.numel
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  bcast_S_S4x12x2048x1 : S_.BroadcastsInDim S4x12x2048x1 (![] : Fin 0 → Fin S4x12x2048x1.rank)
  bcast_S4x12x2048x1_S4x12x2048x64_0_1_2_3 : S4x12x2048x1.BroadcastsInDim S4x12x2048x64 (![0, 1, 2, 3] : Fin 4 → Fin S4x12x2048x64.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.Block.lean ====
/-
  The output tile of one grid point as ONE function of the query tile and the two caches, and its four heads.

  A tile is 512 query rows by 256 lanes: four heads of depth 64 side by side. Head number hh of the tile reads lanes
  64·hh … 64·hh + 63 of the query tile, of the key cache and of the value cache, and writes the same lanes of the output
  tile. The body is unrolled over hh = 0, 1, 2, 3 with the same operations each time; `head o` below is that common
  computation at lane offset o, and `blockOut_eq_heads` says the body's stored value is the four of them concatenated.
-/
import proofs.«168366_j12953621365329_2_alg».proof.Proof.Gen.KernelIdeal.Skeleton

noncomputable section

open Idealize.ShloMosaic Idealize.SL.Sem

namespace Cert.KernelIdeal.Body

open Cert.KernelIdeal Cert.KernelIdeal.Gen

variable {F : FTy → Type} [FloatOps F]

/-- The key cache after a refill: the fetched key block with its unit axis dropped, narrowed to bf16. -/
abbrev keyCache (k : Vec F S1x2048x256 .f32) : Vec F S2048x256 .bf16 := k0_pay2 k

/-- The value cache after a refill, likewise. -/
abbrev valCache (v : Vec F S1x2048x256 .f32) : Vec F S2048x256 .bf16 := k0_pay3 v

/-- The output tile as a function of the query tile `q` and the two caches: the four heads' attention outputs
    (lanes 0–63, 64–127, 128–191, 192–255), laid side by side, with the unit axis put back. -/
def blockOut (q : Vec F S1x512x256 .f32) (kc vc : Vec F S2048x256 .bf16) : Vec F S1x512x256 .f32 :=
  k0_pay1 (k0_pay5 q kc vc) (k0_pay8 (k0_pay6 vc) (k0_pay7 q kc)) (k0_pay9 (k0_pay4 q) kc vc) (k0_pay10 vc)
    (k0_pay12 (k0_pay4 q) kc) (k0_pay13 (k0_pay4 q) kc)

/-- The scores of the head at lane offset `o`: the query lanes times the scale, narrowed, against the key lanes. -/
def scores (o : ℕ) (hq : S512x256.Slices ![0, o] S512x64) (hk : S2048x256.Slices ![0, o] S2048x64)
    (q : FVec F S512x256 .f32) (kc : Vec F S2048x256 .bf16) : FVec F S512x2048 .f32 :=
  matmul dot_S512x64_S2048x64_S512x2048_1_1_0_0_n_n none
    (truncf .bf16 (mulf (extractStridedSlice S512x64 ![0, o] q hq) (broadcast S512x64 (Scalar.ofBits .f32 0x3E000000#32))) bitsLt_bf16_f32)
    (extractStridedSlice S2048x64 ![0, o] kc hk) (constant S512x2048 .f32 0x00000000#32)

/-- The unnormalised weights of that head: the exponential of each score less its row's maximum. -/
def weights (o : ℕ) (hq : S512x256.Slices ![0, o] S512x64) (hk : S2048x256.Slices ![0, o] S2048x64)
    (q : FVec F S512x256 .f32) (kc : Vec F S2048x256 .bf16) : FVec F S512x2048 .f32 :=
  exp (subf (scores o hq hk q kc)
    (broadcastTo S512x2048
      (shapeCast S512x1 (multiReduction .maximumf [1] S512 (scores o hq hk q kc) 0xFF800000#32 reduces_S512x2048_S512 (.inl rfl) rfl) shapeCasts_S512_S512x1)
      broadcasts_S512x1_S512x2048))

/-- The weights' row sums plus ε, kept as a column. -/
def denom (w : FVec F S512x2048 .f32) : FVec F S512x1 .f32 :=
  addf (shapeCast S512x1 (multiReduction .add [1] S512 w 0x00000000#32 reduces_S512x2048_S512 (.inl rfl) rfl) shapeCasts_S512_S512x1)
    (broadcast S512x1 (Scalar.ofBits .f32 0x322BCC77#32))

/-- The narrowed weights against a head's value lanes, over the row's denominator. -/
def average (w : FVec F S512x2048 .f32) (vh : FVec F S2048x64 .bf16) : FVec F S512x64 .f32 :=
  divf (matmul dot_S512x2048_S2048x64_S512x64_1_0_0_1_n_n none (truncf .bf16 w bitsLt_bf16_f32) vh (constant S512x64 .f32 0x00000000#32))
    (broadcastTo S512x64 (denom w) broadcasts_S512x1_S512x64)

/-- The attention output of the head at lane offset `o`. -/
def head (o : ℕ) (hq : S512x256.Slices ![0, o] S512x64) (hk : S2048x256.Slices ![0, o] S2048x64)
    (q : FVec F S512x256 .f32) (kc vc : Vec F S2048x256 .bf16) : FVec F S512x64 .f32 :=
  average (weights o hq hk q kc) (extractStridedSlice S2048x64 ![0, o] vc hk)

/-- The body's stored value is its four heads side by side (the body is the same text four times over). -/
theorem blockOut_eq_heads (q : Vec F S1x512x256 .f32) (kc vc : Vec F S2048x256 .bf16) :
    blockOut q kc vc
      = shapeCast S1x512x256
          (concatenate S512x256 1
            [⟨S512x64, head 0 slices_S512x256_o0_0_S512x64 slices_S2048x256_o0_0_S2048x64 (k0_pay4 q) kc vc⟩,
             ⟨S512x64, head 64 slices_S512x256_o0_64_S512x64 slices_S2048x256_o0_64_S2048x64 (k0_pay4 q) kc vc⟩,
             ⟨S512x64, head 128 slices_S512x256_o0_128_S512x64 slices_S2048x256_o0_128_S2048x64 (k0_pay4 q) kc vc⟩,
             ⟨S512x64, head 192 slices_S512x256_o0_192_S512x64 slices_S2048x256_o0_192_S2048x64 (k0_pay4 q) kc vc⟩]
            concatenates_S512x64_S512x64_S512x64_S512x64_S512x256_d1)
          shapeCasts_S512x256_S1x512x256 := rfl

end Cert.KernelIdeal.Body

end
-- ==== Proof.Pieces.lean ====
/-
  What one grid point leaves behind, as values.

  A grid point (b, g, r) handles batch b, the group g of four consecutive heads (256 lanes) and the r-th tile of 512
  query rows. The body keeps two caches between points: the key block and the value block of (b, g), each [2048, 256],
  narrowed to bf16. At a point with r = 0 it fills both caches from the freshly fetched blocks and then uses them; at a
  point with r ≠ 0 it uses what the previous point left. In both cases the output tile is ONE function `blockOut` of
  the query tile and the two caches; only where the caches come from differs.
-/
import proofs.«168366_j12953621365329_2_alg».proof.Proof.Gen.KernelIdeal.Frame
import proofs.«168366_j12953621365329_2_alg».proof.Proof.Block
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A refilling point leaves the narrowed key block in the key cache. -/
theorem refill_key (c : Dev nD) (i : grid0.Coords) (arg3 : Memref sig .tc .vmem S1x512x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x512x256 .f32) (harg6 : arg6.IsWhole) (arg7 : Memref sig .tc .vmem S2048x256 .bf16) (harg7 : arg7.IsWhole) (arg8 : Memref sig .tc .vmem S2048x256 .bf16) (harg8 : arg8.IsWhole) (hc0 : cond0_0 i)
    (x0 : Vec F S1x512x256 .f32) (x1 : Vec F S1x2048x256 .f32) (x2 : Vec F S1x2048x256 .f32) :
    sout0_A_0 c i arg3 harg3 arg4 harg4 arg5 harg5 arg6 harg6 arg7 harg7 arg8 harg8 hc0 x0 x1 x2 = keyCache x1 := by
  unfold sout0_A_0
  rw [View.read_writes_eq_canon _ _ _ (scover0_A_0 c i arg3 harg3 arg4 harg4 arg5 harg5 arg6 harg6 arg7 harg7 arg8 harg8 hc0 x0 x1 x2)]
  unfold kernelRun0_A
  dsimp only
  sl_unfold_words
  rw [View.canon_unit_zero off2]
  simp only [View.readAt_eq_ld, harg4.read_unread, View.ld_unit_zero (S := S1x2048x256) off3]

/-- A refilling point leaves the narrowed value block in the value cache. -/
theorem refill_val (c : Dev nD) (i : grid0.Coords) (arg3 : Memref sig .tc .vmem S1x512x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x512x256 .f32) (harg6 : arg6.IsWhole) (arg7 : Memref sig .tc .vmem S2048x256 .bf16) (harg7 : arg7.IsWhole) (arg8 : Memref sig .tc .vmem S2048x256 .bf16) (harg8 : arg8.IsWhole) (hc0 : cond0_0 i)
    (x0 : Vec F S1x512x256 .f32) (x1 : Vec F S1x2048x256 .f32) (x2 : Vec F S1x2048x256 .f32) :
    sout0_A_1 c i arg3 harg3 arg4 harg4 arg5 harg5 arg6 harg6 arg7 harg7 arg8 harg8 hc0 x0 x1 x2 = valCache x2 := by
  unfold sout0_A_1
  rw [View.read_writes_eq_canon _ _ _ (scover0_A_1 c i arg3 harg3 arg4 harg4 arg5 harg5 arg6 harg6 arg7 harg7 arg8 harg8 hc0 x0 x1 x2)]
  unfold kernelRun0_A
  dsimp only
  sl_unfold_words
  rw [View.canon_unit_zero off2]
  simp only [View.readAt_eq_ld, harg5.read_unread, View.ld_unit_zero (S := S1x2048x256) off3]

/-- A refilling point's output tile: `blockOut` of the query tile and the caches it has just filled. -/
theorem refill_out (c : Dev nD) (i : grid0.Coords) (arg3 : Memref sig .tc .vmem S1x512x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x512x256 .f32) (harg6 : arg6.IsWhole) (arg7 : Memref sig .tc .vmem S2048x256 .bf16) (harg7 : arg7.IsWhole) (arg8 : Memref sig .tc .vmem S2048x256 .bf16) (harg8 : arg8.IsWhole) (hc0 : cond0_0 i)
    (x0 : Vec F S1x512x256 .f32) (x1 : Vec F S1x2048x256 .f32) (x2 : Vec F S1x2048x256 .f32) :
    out0_A_3 c i arg3 harg3 arg4 harg4 arg5 harg5 arg6 harg6 arg7 harg7 arg8 harg8 hc0 x0 x1 x2 = blockOut x0 (keyCache x1) (valCache x2) := by
  unfold out0_A_3
  rw [View.read_writes_eq_canon _ _ _ (cover0_A_3 c i arg3 harg3 arg4 harg4 arg5 harg5 arg6 harg6 arg7 harg7 arg8 harg8 hc0 x0 x1 x2)]
  unfold kernelRun0_A
  dsimp only
  sl_unfold_words
  rw [View.canon_unit_zero off3]
  simp only [View.readCov_unit_zero (S := S2048x256) _ off2, View.readAt_eq_ld, harg3.read_unread, harg4.read_unread,
    harg5.read_unread, View.ld_unit_zero (S := S1x2048x256) off3, View.ld_unit_zero (S := S1x512x256) off3]
  rfl

/-- A point that does not refill: `blockOut` of the query tile and the caches as the previous point left them. -/
theorem reuse_out (c : Dev nD) (i : grid0.Coords) (arg3 : Memref sig .tc .vmem S1x512x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x512x256 .f32) (harg6 : arg6.IsWhole) (arg7 : Memref sig .tc .vmem S2048x256 .bf16) (harg7 : arg7.IsWhole) (arg8 : Memref sig .tc .vmem S2048x256 .bf16) (harg8 : arg8.IsWhole) (hc0 : ¬cond0_0 i)
    (x0 : Vec F S1x512x256 .f32) (x1 : Vec F S1x2048x256 .f32) (x2 : Vec F S1x2048x256 .f32) (xs0 xs1 : Vec F S2048x256 .bf16) :
    out0_B_3 c i arg3 harg3 arg4 harg4 arg5 harg5 arg6 harg6 arg7 harg7 arg8 harg8 hc0 x0 x1 x2 xs0 xs1 = blockOut x0 xs0 xs1 := by
  unfold out0_B_3
  rw [View.read_writes_eq_canon _ _ _ (cover0_B_3 c i arg3 harg3 arg4 harg4 arg5 harg5 arg6 harg6 arg7 harg7 arg8 harg8 hc0 x0 x1 x2 xs0 xs1)]
  unfold kernelRun0_B
  dsimp only
  sl_unfold_words
  rw [View.canon_unit_zero off3]
  simp only [View.readAt_eq_ld, harg3.read_unread, harg7.read_unread, harg8.read_unread,
    View.ld_unit_zero (S := S2048x256) off2, View.ld_unit_zero (S := S1x512x256) off3]
  rfl

end Cert.KernelIdeal.Body

end
-- ==== Proof.Carried.lean ====
/-
  The caches between grid points.

  The 48 grid points run in row-major order of (b, g, r), r innermost with four values, so the points come in runs of
  four that share (b, g); the first point of the run containing point n is point 4·(n / 4), and it is exactly the
  points with n ≡ 0 (mod 4) that refill the caches. Hence, by induction on n: after point n the key cache holds the
  narrowed key block fetched at the first point of n's run, and the value cache the narrowed value block fetched
  there. With that, the output tile of every point is `blockOut` of its own query tile and of those two blocks.
-/
import proofs.«168366_j12953621365329_2_alg».proof.Proof.Pieces

noncomputable section

open Idealize.ShloMosaic Idealize.ShloMosaic.TcCoe Idealize.SL.Sem

namespace Cert.KernelIdeal.Body

open Cert.KernelIdeal Cert.KernelIdeal.Gen

variable {F : FTy → Type} [FloatOps F]
variable (m : (ℓ : Loc nD τ sig) → Buf (Elt F) ℓ)

/-- What a refilling point leaves: the output tile, then the two caches, all from its own blocks. -/
theorem at_refill (c : Dev nD) (t : Fin cfg0.N) (h0 : t.val % 4 = 0) :
    outsAt0 m c t.val t.isLt
      = (blockOut (iblk m c 0 t) (keyCache (iblk m c 1 t)) (valCache (iblk m c 2 t)), keyCache (iblk m c 1 t), valCache (iblk m c 2 t)) :=
  (outsAt0_A m c t h0).trans (congrArg₂ Prod.mk
    (refill_out c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t))
    (congrArg₂ Prod.mk
      (refill_key c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t))
      (refill_val c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t))))

/-- What a point that does not refill leaves: the caches as they were, and the output tile computed from them. -/
theorem at_reuse (c : Dev nD) (t : Fin cfg0.N) (h0 : ¬t.val % 4 = 0) :
    outsAt0 m c t.val t.isLt
      = (blockOut (iblk m c 0 t) (outsAt0 m c (t.val - 1) (Nat.lt_of_le_of_lt (Nat.sub_le _ _) t.isLt)).2.1
            (outsAt0 m c (t.val - 1) (Nat.lt_of_le_of_lt (Nat.sub_le _ _) t.isLt)).2.2,
          (outsAt0 m c (t.val - 1) (Nat.lt_of_le_of_lt (Nat.sub_le _ _) t.isLt)).2.1,
          (outsAt0 m c (t.val - 1) (Nat.lt_of_le_of_lt (Nat.sub_le _ _) t.isLt)).2.2) :=
  (outsAt0_B m c t h0).trans (congrArg₂ Prod.mk
    (reuse_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.1
      (outsAt0 m c (t.val - 1) (Nat.lt_of_le_of_lt (Nat.sub_le _ _) t.isLt)).2.2)
    rfl)

/-- The first point of the run of four points (same batch, same head group) that contains point `n`. -/
def lead (n : ℕ) (h : n < cfg0.N) : Fin cfg0.N := ⟨4 * (n / 4), lt_of_le_of_lt (Nat.mul_div_le n 4) h⟩

theorem lead_of_refill (n : ℕ) (h : n < cfg0.N) (h0 : n % 4 = 0) : lead n h = ⟨n, h⟩ :=
  Fin.ext (by show 4 * (n / 4) = n; omega)

theorem lead_succ_of_reuse (n : ℕ) (h : n + 1 < cfg0.N) (h0 : ¬(n + 1) % 4 = 0) :
    lead (n + 1) h = lead n (Nat.lt_of_succ_lt h) :=
  Fin.ext (by show 4 * ((n + 1) / 4) = 4 * (n / 4); omega)

/-- After point `n` the two caches hold the narrowed key and value blocks of the first point of `n`'s run. -/
theorem caches_eq (c : Dev nD) : ∀ (n : ℕ) (h : n < cfg0.N),
    (outsAt0 m c n h).2 = (keyCache (iblk m c 1 (lead n h)), valCache (iblk m c 2 (lead n h)))
  | 0, h => by
    have e := at_refill m c ⟨0, h⟩ rfl
    have e' := lead_of_refill 0 h rfl
    rw [e']
    exact congrArg Prod.snd e
  | n + 1, h => by
    by_cases h0 : (n + 1) % 4 = 0
    · have e := at_refill m c ⟨n + 1, h⟩ h0
      rw [lead_of_refill (n + 1) h h0]
      exact congrArg Prod.snd e
    · have e := at_reuse m c ⟨n + 1, h⟩ h0
      rw [lead_succ_of_reuse n h h0]
      exact (congrArg Prod.snd e).trans (caches_eq c n (Nat.lt_of_succ_lt h))

/-- What point `t` leaves in the output's staging buffer: `blockOut` of its query tile and of the key and value
    blocks of its run. -/
theorem out_eq (c : Dev nD) (t : Fin cfg0.N) :
    (outsAt0 m c t.val t.isLt).1
      = blockOut (iblk m c 0 t) (keyCache (iblk m c 1 (lead t.val t.isLt))) (valCache (iblk m c 2 (lead t.val t.isLt))) := by
  by_cases h0 : t.val % 4 = 0
  · rw [lead_of_refill t.val t.isLt h0]
    exact congrArg Prod.fst (at_refill m c t h0)
  · obtain ⟨n, hn⟩ := t
    cases n with
    | zero => exact absurd (Nat.zero_mod 4) h0
    | succ n =>
      have hc := caches_eq m c n (Nat.lt_of_succ_lt hn)
      refine (congrArg Prod.fst (at_reuse m c ⟨n + 1, hn⟩ h0)).trans ?_
      show blockOut _ (outsAt0 m c n _).2.1 (outsAt0 m c n _).2.2 = _
      rw [lead_succ_of_reuse n hn h0, hc]

end Cert.KernelIdeal.Body

end
-- ==== Proof.Attn.lean ====
/-
  Softmax attention with a stabilising row maximum and an additive epsilon in the denominator, for ONE query row of ONE
  head against 2048 keys, over the extended reals, and the whole [4, 2048, 768] result assembled from it.

  For a query row q ∈ E^64, keys key_j ∈ E^64 and one value column val_j (j < 2048):
      s_j  = Σ_d (q_d · c) · key_j,d              the scaled scores (c is the scale, applied to the query first)
      M    = max (−∞, s_0, …, s_2047)             the row maximum
      w_j  = exp (s_j − M)                        the unnormalised weights
      out  = (Σ_j w_j · val_j) / (Σ_j w_j + ε)
  Both programs compute exactly this, entry by entry; they differ in how the 12 heads are laid out while they do it.
  The heads are packed along the last axis: lane ℓ belongs to head ℓ / 64, at depth ℓ % 64.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Attn

/-- The scale 2⁻³ = 64^(−1/2), the denominator's epsilon (the f32 nearest 10⁻⁸) and −∞, as the two programs spell them. -/
abbrev scale : EReal := Ideal.ofBits .f32 0x3E000000#32
abbrev eps : EReal := Ideal.ofBits .f32 0x322BCC77#32
abbrev negInf : EReal := Ideal.ofBits .f32 0xFF800000#32

/-- The scaled score of the query row against key `j`. -/
def score (q : Fin 64 → EReal) (key : Fin 2048 → Fin 64 → EReal) (j : Fin 2048) : EReal :=
  ∑ d : Fin 64, q d * scale * key j d

/-- The largest score of the row (−∞ over no keys). -/
def top (q : Fin 64 → EReal) (key : Fin 2048 → Fin 64 → EReal) : EReal :=
  (Finset.univ : Finset (Fin 2048)).fold max negInf (score q key)

/-- The unnormalised softmax weight of key `j`. -/
def weight (q : Fin 64 → EReal) (key : Fin 2048 → Fin 64 → EReal) (j : Fin 2048) : EReal :=
  Ideal.exp (score q key j - top q key)

/-- One entry of the attention output: the weighted sum of one value column over the sum of the weights plus ε. -/
def entry (q : Fin 64 → EReal) (key : Fin 2048 → Fin 64 → EReal) (val : Fin 2048 → EReal) : EReal :=
  Ideal.div (∑ j : Fin 2048, weight q key j * val j) ((∑ j : Fin 2048, weight q key j) + eps)

/-- Lane `d` of the head that lane `l` belongs to. -/
def headLane (l : Fin 768) (d : Fin 64) : Fin 768 := ⟨64 * (l.val / 64) + d.val, by have := l.isLt; have := d.isLt; omega⟩

/-- The whole result: entry (b, i, l) attends query row (b, i) of l's head to all 2048 keys of batch b in that head, and
    averages lane l of the values. -/
def out (K Q V : (⟨3, ![4, 2048, 768]⟩ : Shape).Idx → EReal) : (⟨3, ![4, 2048, 768]⟩ : Shape).Idx → EReal := fun i =>
  entry (fun d => Q (ix3 (i 0) (i 1) (headLane (i 2) d))) (fun j d => K (ix3 (i 0) j (headLane (i 2) d)))
    (fun j => V (ix3 (i 0) j (i 2)))

end Attn

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.HeadValue.lean ====
/-
  One head of the tile, read entry by entry over the extended reals.

  At the ideal values narrowing to bf16 is the identity, a matrix product into a zero accumulator is the plain sum of
  products over the contracted axis, a row maximum is the fold of `max` from −∞ over the row, and a row sum is the sum
  over the row. So entry (p, d) of the head at lane offset o is `Attn.entry` of row p's query lanes o … o + 63, of all
  2048 rows of the key cache at those lanes, and of lane o + d of the value cache.
-/
import proofs.«168366_j12953621365329_2_alg».proof.Proof.Block
import proofs.«168366_j12953621365329_2_alg».proof.Proof.Attn
import proofs.«168366_j12953621365329_2_alg».proof.Proof.LibKeepdims
import Idealize.ShloMosaic.Lib.ValueLayout
import Idealize.ShloMosaic.PureOps.Ideal.Laws

noncomputable section

open Idealize.ShloMosaic Idealize.SL.Sem Idealize.ShloMosaic.ValueIdx

namespace Cert.KernelIdeal.Body

open Cert.KernelIdeal Cert.KernelIdeal.Gen

/-- The two products of a head: queries against keys over the depth, weights against values over the keys. -/
abbrev dotQK := dot_S512x64_S2048x64_S512x2048_1_1_0_0_n_n
abbrev dotWV := dot_S512x2048_S2048x64_S512x64_1_0_0_1_n_n

/-- Where the two products read their operands: at result index `i` and contraction position `k`, the queries at
    (i₀, k) and the keys at (i₁, k); the weights at (i₀, k) and the values at (k, i₁). -/
theorem qk_lhs0 (i : S512x2048.Idx) (k : dotQK.contr.Idx) : (dotQK.lhsIdx i k 0).val = (i 0).val := by
  unfold DotDims.lhsIdx
  rw [dif_neg (show ¬(0 : Fin S512x64.rank) ∈ dotQK.lhsBatch by decide),
    dif_pos (show (0 : Fin S512x64.rank) ∈ dotQK.lhsNonContracting by decide)]
  rfl
theorem qk_lhs1 (i : S512x2048.Idx) (k : dotQK.contr.Idx) : (dotQK.lhsIdx i k 1).val = (k ⟨0, by decide⟩).val :=
  dotQK.lhsIdx_val_of_single rfl i k
theorem qk_rhs0 (i : S512x2048.Idx) (k : dotQK.contr.Idx) : (dotQK.rhsIdx i k 0).val = (i 1).val := by
  unfold DotDims.rhsIdx
  rw [dif_neg (show ¬(0 : Fin S2048x64.rank) ∈ dotQK.rhsBatch by decide),
    dif_pos (show (0 : Fin S2048x64.rank) ∈ dotQK.rhsNonContracting by decide)]
  rfl
theorem qk_rhs1 (i : S512x2048.Idx) (k : dotQK.contr.Idx) : (dotQK.rhsIdx i k 1).val = (k ⟨0, by decide⟩).val :=
  dotQK.rhsIdx_val_of_single rfl i k
theorem wv_lhs0 (i : S512x64.Idx) (k : dotWV.contr.Idx) : (dotWV.lhsIdx i k 0).val = (i 0).val := by
  unfold DotDims.lhsIdx
  rw [dif_neg (show ¬(0 : Fin S512x2048.rank) ∈ dotWV.lhsBatch by decide),
    dif_pos (show (0 : Fin S512x2048.rank) ∈ dotWV.lhsNonContracting by decide)]
  rfl
theorem wv_lhs1 (i : S512x64.Idx) (k : dotWV.contr.Idx) : (dotWV.lhsIdx i k 1).val = (k ⟨0, by decide⟩).val :=
  dotWV.lhsIdx_val_of_single rfl i k
theorem wv_rhs0 (i : S512x64.Idx) (k : dotWV.contr.Idx) : (dotWV.rhsIdx i k 0).val = (k ⟨0, by decide⟩).val :=
  dotWV.rhsIdx_val_of_single rfl i k
theorem wv_rhs1 (i : S512x64.Idx) (k : dotWV.contr.Idx) : (dotWV.rhsIdx i k 1).val = (i 1).val := by
  unfold DotDims.rhsIdx
  rw [dif_neg (show ¬(1 : Fin S2048x64.rank) ∈ dotWV.rhsBatch by decide),
    dif_pos (show (1 : Fin S2048x64.rank) ∈ dotWV.rhsNonContracting by decide)]
  rfl

/-- Queries [512, 64] against keys [2048, 64], contracted over the depth: entry (p, j) is Σ_d l(p, d) · r(j, d). -/
theorem matmul_qk_apply (l : FVec Ideal S512x64 .bf16) (r : FVec Ideal S2048x64 .bf16) (p : Fin 512) (j : Fin 2048) :
    matmul dotQK none l r (constant S512x2048 .f32 0x00000000#32) (ix2 p j) = ∑ d : Fin 64, l (ix2 p d) * r (ix2 j d) := by
  simp only [matmul]
  rw [Ideal.matmul_constant_zero_apply, ← Equiv.sum_comp (contrEquiv1 dotQK 64 rfl rfl).symm]
  refine Finset.sum_congr rfl fun d _ => ?_
  have hk := contrEquiv1_symm_val dotQK 64 rfl rfl d
  have el : dotQK.lhsIdx (ix2 p j) ((contrEquiv1 dotQK 64 rfl rfl).symm d) = ix2 p d := funext fun a => Fin.ext (by
    match a with
    | ⟨0, _⟩ => exact qk_lhs0 _ _
    | ⟨1, _⟩ => exact (qk_lhs1 _ _).trans hk)
  have er : dotQK.rhsIdx (ix2 p j) ((contrEquiv1 dotQK 64 rfl rfl).symm d) = ix2 j d := funext fun a => Fin.ext (by
    match a with
    | ⟨0, _⟩ => exact qk_rhs0 _ _
    | ⟨1, _⟩ => exact (qk_rhs1 _ _).trans hk)
  rw [el, er]

/-- Weights [512, 2048] against values [2048, 64], contracted over the keys: entry (p, d) is Σ_j l(p, j) · r(j, d). -/
theorem matmul_wv_apply (l : FVec Ideal S512x2048 .bf16) (r : FVec Ideal S2048x64 .bf16) (p : Fin 512) (d : Fin 64) :
    matmul dotWV none l r (constant S512x64 .f32 0x00000000#32) (ix2 p d) = ∑ j : Fin 2048, l (ix2 p j) * r (ix2 j d) := by
  simp only [matmul]
  rw [Ideal.matmul_constant_zero_apply, ← Equiv.sum_comp (contrEquiv1 dotWV 2048 rfl rfl).symm]
  refine Finset.sum_congr rfl fun j _ => ?_
  have hk := contrEquiv1_symm_val dotWV 2048 rfl rfl j
  have el : dotWV.lhsIdx (ix2 p d) ((contrEquiv1 dotWV 2048 rfl rfl).symm j) = ix2 p j := funext fun a => Fin.ext (by
    match a with
    | ⟨0, _⟩ => exact wv_lhs0 _ _
    | ⟨1, _⟩ => exact (wv_lhs1 _ _).trans hk)
  have er : dotWV.rhsIdx (ix2 p d) ((contrEquiv1 dotWV 2048 rfl rfl).symm j) = ix2 j d := funext fun a => Fin.ext (by
    match a with
    | ⟨0, _⟩ => exact (wv_rhs0 _ _).trans hk
    | ⟨1, _⟩ => exact wv_rhs1 _ _)
  rw [el, er]

/-- The index the row reductions insert: row `p`, position `j` of the reduced axis. -/
theorem lift_row (p : Fin 512) (j : Fin 2048) : reduces_S512x2048_S512.lift (ix1 p) j = ix2 p j :=
  funext fun a => Fin.ext (by match a with | ⟨0, _⟩ => rfl | ⟨1, _⟩ => rfl)

/-- A row's maximum: the fold of `max` from −∞ over the row's 2048 entries. -/
theorem rowmax_apply (s : FVec Ideal S512x2048 .f32) (p : Fin 512) :
    multiReduction .maximumf [1] S512 s 0xFF800000#32 reduces_S512x2048_S512 (.inl rfl) rfl (ix1 p)
      = (Finset.univ : Finset (Fin 2048)).fold max Attn.negInf (fun j => s (ix2 p j)) := by
  refine (Ideal.multiReduction_maximumf_single s 0xFF800000#32 reduces_S512x2048_S512 (.inl rfl) rfl (ix1 p)).trans ?_
  refine congrArg (Finset.fold max Attn.negInf · Finset.univ) (funext fun j => ?_)
  exact congrArg s (lift_row p j)

/-- A row's sum. -/
theorem rowsum_apply (w : FVec Ideal S512x2048 .f32) (p : Fin 512) :
    multiReduction .add [1] S512 w 0x00000000#32 reduces_S512x2048_S512 (.inl rfl) rfl (ix1 p) = ∑ j : Fin 2048, w (ix2 p j) := by
  refine (Ideal.multiReduction_add_single w 0x00000000#32 reduces_S512x2048_S512 (.inl rfl) rfl (ix1 p)).trans ?_
  exact Finset.sum_congr rfl fun j _ => congrArg w (lift_row p j)

/-- Lane `o + d` of a 256-lane tile. -/
def lane (o : ℕ) (ho : o + 64 ≤ 256) (d : Fin 64) : Fin 256 := ⟨o + d.val, by have := d.isLt; omega⟩

variable (o : ℕ) (ho : o + 64 ≤ 256) (hq : S512x256.Slices ![0, o] S512x64) (hk : S2048x256.Slices ![0, o] S2048x64)
variable (q : FVec Ideal S512x256 .f32) (kc vc : FVec Ideal S2048x256 .bf16)

/-- The score of row `p` against key `j`, over the head's 64 lanes. -/
theorem scores_apply (p : Fin 512) (j : Fin 2048) :
    scores o hq hk q kc (ix2 p j)
      = Attn.score (fun d => q (ix2 p (lane o ho d))) (fun j d => kc (ix2 j (lane o ho d))) j := by
  unfold scores Attn.score
  refine (matmul_qk_apply _ _ p j).trans (Finset.sum_congr rfl fun d _ => ?_)
  show extractStridedSlice S512x64 ![0, o] q hq (ix2 p d) * Ideal.ofBits .f32 0x3E000000#32
      * extractStridedSlice S2048x64 ![0, o] kc hk (ix2 j d) = _
  rw [slice2_axis1_apply o q hq p d (lane o ho d) rfl, slice2_axis1_apply o kc hk j d (lane o ho d) rfl]

/-- The weight of key `j` for row `p`. -/
theorem weights_apply (p : Fin 512) (j : Fin 2048) :
    weights o hq hk q kc (ix2 p j)
      = Attn.weight (fun d => q (ix2 p (lane o ho d))) (fun j d => kc (ix2 j (lane o ho d))) j := by
  unfold weights Attn.weight Attn.top
  show Ideal.exp (scores o hq hk q kc (ix2 p j) - broadcastTo S512x2048 _ broadcasts_S512x1_S512x2048 (ix2 p j)) = _
  rw [broadcastTo_a1_ab_apply, shapeCast_a_a1_apply, rowmax_apply, scores_apply o ho]
  simp only [scores_apply o ho]

/-- A row's denominator: the sum of its weights plus ε. -/
theorem denom_apply (w : FVec Ideal S512x2048 .f32) (p : Fin 512) :
    denom w (ix2 p (0 : Fin 1)) = (∑ j : Fin 2048, w (ix2 p j)) + Attn.eps := by
  unfold denom
  show shapeCast S512x1 _ shapeCasts_S512_S512x1 (ix2 p (0 : Fin 1)) + Ideal.ofBits .f32 0x322BCC77#32 = _
  rw [shapeCast_a_a1_apply, rowsum_apply]

/-- The weighted average of a value column. -/
theorem average_apply (w : FVec Ideal S512x2048 .f32) (vh : FVec Ideal S2048x64 .bf16) (p : Fin 512) (d : Fin 64) :
    average w vh (ix2 p d)
      = Ideal.div (∑ j : Fin 2048, w (ix2 p j) * vh (ix2 j d)) ((∑ j : Fin 2048, w (ix2 p j)) + Attn.eps) := by
  unfold average
  show Ideal.div (matmul dotWV none (truncf .bf16 w bitsLt_bf16_f32) vh (constant S512x64 .f32 0x00000000#32) (ix2 p d))
      (broadcastTo S512x64 (denom w) broadcasts_S512x1_S512x64 (ix2 p d)) = _
  rw [matmul_wv_apply, broadcastTo_a1_ab_apply, denom_apply]
  rfl

/-- Entry (p, d) of the head at lane offset `o`. -/
theorem head_apply (p : Fin 512) (d : Fin 64) :
    head o hq hk q kc vc (ix2 p d)
      = Attn.entry (fun d' => q (ix2 p (lane o ho d'))) (fun j d' => kc (ix2 j (lane o ho d')))
          (fun j => vc (ix2 j (lane o ho d))) := by
  unfold head Attn.entry
  rw [average_apply]
  simp only [weights_apply o ho, slice2_axis1_apply o vc hk _ d (lane o ho d) rfl]

end Cert.KernelIdeal.Body

end
-- ==== Proof.BlockValue.lean ====
/-
  The output tile read entry by entry, first against the tile's own blocks, then against the three whole arrays.

  Lane l of a tile is lane l % 64 of the tile's head l / 64, so entry (p, l) of the tile is `Attn.entry` of row p's
  query lanes of that head, of the cached keys at those lanes, and of lane l of the cached values. When the query tile
  is rows 512·r … of batch b at lanes 256·g …, and the caches hold batch b's keys and values at the same lanes, the head
  l / 64 of the tile is head 4·g + l / 64 of the array, and the entry is the array-level attention output at
  (b, 512·r + p, 256·g + l).
-/
import proofs.«168366_j12953621365329_2_alg».proof.Proof.HeadValue

noncomputable section

open Idealize.ShloMosaic Idealize.SL.Sem Idealize.ShloMosaic.ValueIdx

namespace Cert.KernelIdeal.Body

open Cert.KernelIdeal Cert.KernelIdeal.Gen

/-- Lane `d` of head `hh` of a tile. -/
def tileLane (hh : Fin 4) (d : Fin 64) : Fin 256 := ⟨64 * hh.val + d.val, by have := hh.isLt; have := d.isLt; omega⟩

/-- Four [512, 64] pieces side by side read, at lane 64·k + d, piece k at lane d. -/
theorem sideBySide_apply {α : Type} (xs : List ((s : Shape) × (s.Idx → α))) (h : Shape.Concatenates (xs.map (·.1)) S512x256 1)
    (k : ℕ) (hk : k < xs.length) (x : S512x64.Idx → α) (hx : xs[k] = ⟨S512x64, x⟩)
    (hpre : (((xs.take k).map (·.1)).map fun s => if h : s.rank = S512x256.rank then s.size ((1 : Fin S512x256.rank).cast h.symm) else 0).sum = 64 * k)
    (p : Fin 512) (d : Fin 64) (l : Fin 256) (hl : l.val = 64 * k + d.val) :
    concatenate S512x256 1 xs h (ix2 p l) = x (ix2 p d) :=
  concatenate_apply_piece 1 xs h (ix2 p l) k hk S512x64 x hx rfl (64 * k) hpre (ix2 p d)
    (fun b hb => by
      match b with
      | ⟨0, _⟩ => rfl
      | ⟨1, _⟩ => exact absurd rfl hb)
    (by show 64 * k + d.val = l.val; omega)

/-- The query tile with its unit axis dropped. -/
theorem dropUnit_apply (q : Vec Ideal S1x512x256 .f32) (p : Fin 512) (l : Fin 256) :
    k0_pay4 q (ix2 p l) = q (ix3 (0 : Fin 1) p l) :=
  shapeCast_1ab_ab_apply q shapeCasts_S1x512x256_S512x256 p l

/-- Entry (p, lane d of head hh) of the tile: the attention of row p's query lanes of head hh against the cached keys at
    those lanes, averaging lane d of head hh of the cached values. -/
theorem blockOut_apply (q : Vec Ideal S1x512x256 .f32) (kc vc : FVec Ideal S2048x256 .bf16) (u : Fin 1) (p : Fin 512)
    (hh : Fin 4) (d : Fin 64) :
    blockOut q kc vc (ix3 u p (tileLane hh d))
      = Attn.entry (fun d' => q (ix3 (0 : Fin 1) p (tileLane hh d'))) (fun j d' => kc (ix2 j (tileLane hh d')))
          (fun j => vc (ix2 j (tileLane hh d))) := by
  rw [blockOut_eq_heads]
  refine (shapeCast_ab_1ab_apply _ shapeCasts_S512x256_S1x512x256 u p (tileLane hh d)).trans ?_
  match hh with
  | ⟨0, _⟩ =>
    refine (sideBySide_apply _ _ 0 (by show 0 < 4; omega) _ rfl rfl p d _ rfl).trans ?_
    refine (head_apply 0 (by omega) slices_S512x256_o0_0_S512x64 slices_S2048x256_o0_0_S2048x64 (k0_pay4 q) kc vc p d).trans ?_
    have e : ∀ d' : Fin 64, lane 0 (by omega) d' = tileLane ⟨0, by omega⟩ d' := fun d' => Fin.ext (by show 0 + d'.val = 64 * 0 + d'.val; omega)
    simp only [e, dropUnit_apply]
  | ⟨1, _⟩ =>
    refine (sideBySide_apply _ _ 1 (by show 1 < 4; omega) _ rfl rfl p d _ rfl).trans ?_
    refine (head_apply 64 (by omega) slices_S512x256_o0_64_S512x64 slices_S2048x256_o0_64_S2048x64 (k0_pay4 q) kc vc p d).trans ?_
    have e : ∀ d' : Fin 64, lane 64 (by omega) d' = tileLane ⟨1, by omega⟩ d' := fun d' => Fin.ext (by show 64 + d'.val = 64 * 1 + d'.val; omega)
    simp only [e, dropUnit_apply]
  | ⟨2, _⟩ =>
    refine (sideBySide_apply _ _ 2 (by show 2 < 4; omega) _ rfl rfl p d _ rfl).trans ?_
    refine (head_apply 128 (by omega) slices_S512x256_o0_128_S512x64 slices_S2048x256_o0_128_S2048x64 (k0_pay4 q) kc vc p d).trans ?_
    have e : ∀ d' : Fin 64, lane 128 (by omega) d' = tileLane ⟨2, by omega⟩ d' := fun d' => Fin.ext (by show 128 + d'.val = 64 * 2 + d'.val; omega)
    simp only [e, dropUnit_apply]
  | ⟨3, _⟩ =>
    refine (sideBySide_apply _ _ 3 (by show 3 < 4; omega) _ rfl rfl p d _ rfl).trans ?_
    refine (head_apply 192 (by omega) slices_S512x256_o0_192_S512x64 slices_S2048x256_o0_192_S2048x64 (k0_pay4 q) kc vc p d).trans ?_
    have e : ∀ d' : Fin 64, lane 192 (by omega) d' = tileLane ⟨3, by omega⟩ d' := fun d' => Fin.ext (by show 192 + d'.val = 64 * 3 + d'.val; omega)
    simp only [e, dropUnit_apply]

/-- The key cache after a refill, entry by entry: the fetched block's entry (narrowing is the identity here). -/
theorem keyCache_apply (Kb : Vec Ideal S1x2048x256 .f32) (j : Fin 2048) (l : Fin 256) :
    keyCache Kb (ix2 j l) = Kb (ix3 (0 : Fin 1) j l) := by
  show k0_pay2 Kb (ix2 j l) = _
  unfold k0_pay2
  rw [shapeCast_self]
  exact shapeCast_1ab_ab_apply Kb shapeCasts_S1x2048x256_S2048x256 j l

/-- The value cache likewise. -/
theorem valCache_apply (Vb : Vec Ideal S1x2048x256 .f32) (j : Fin 2048) (l : Fin 256) :
    valCache Vb (ix2 j l) = Vb (ix3 (0 : Fin 1) j l) := by
  show k0_pay3 Vb (ix2 j l) = _
  unfold k0_pay3
  rw [shapeCast_self]
  exact shapeCast_1ab_ab_apply Vb shapeCasts_S1x2048x256_S2048x256 j l

/-- A tile against the arrays. If the query tile `Qb` is rows 512·r … of batch `b` of `Q` at lanes 256·g …, and the
    blocks `Kb`, `Vb` the caches were filled from are batch `b` of `K`, `V` at the same lanes, then entry (p, l) of the
    tile is the attention output of the arrays at (b, 512·r + p, 256·g + l). -/
theorem tile_entry (Qb : Vec Ideal S1x512x256 .f32) (Kb Vb : Vec Ideal S1x2048x256 .f32) (K Q V : S4x2048x768.Idx → EReal)
    (b : Fin 4) (g : Fin 3) (r : Fin 4)
    (hQ : ∀ (p : Fin 512) (l : Fin 256) (i1 : Fin 2048) (i2 : Fin 768), i1.val = 512 * r.val + p.val →
      i2.val = 256 * g.val + l.val → Qb (ix3 (0 : Fin 1) p l) = Q (ix3 b i1 i2))
    (hK : ∀ (j : Fin 2048) (l : Fin 256) (i2 : Fin 768), i2.val = 256 * g.val + l.val → Kb (ix3 (0 : Fin 1) j l) = K (ix3 b j i2))
    (hV : ∀ (j : Fin 2048) (l : Fin 256) (i2 : Fin 768), i2.val = 256 * g.val + l.val → Vb (ix3 (0 : Fin 1) j l) = V (ix3 b j i2))
    (u : Fin 1) (p : Fin 512) (l : Fin 256) (i1 : Fin 2048) (i2 : Fin 768) (h1 : i1.val = 512 * r.val + p.val)
    (h2 : i2.val = 256 * g.val + l.val) :
    blockOut Qb (keyCache Kb) (valCache Vb) (ix3 u p l) = Attn.out K Q V (ix3 b i1 i2) := by
  have hl := l.isLt
  have hg := g.isLt
  obtain ⟨hh, d, rfl⟩ : ∃ (hh : Fin 4) (d : Fin 64), l = tileLane hh d :=
    ⟨⟨l.val / 64, by omega⟩, ⟨l.val % 64, by omega⟩, Fin.ext (by show l.val = 64 * (l.val / 64) + l.val % 64; omega)⟩
  have hl' : (tileLane hh d).val = 64 * hh.val + d.val := rfl
  have hd := d.isLt
  have hhh := hh.isLt
  rw [blockOut_apply]
  show _ = Attn.entry (fun d' => Q (ix3 b i1 (Attn.headLane i2 d'))) (fun j d' => K (ix3 b j (Attn.headLane i2 d')))
      (fun j => V (ix3 b j i2))
  have hlane : ∀ d' : Fin 64, (Attn.headLane i2 d').val = 256 * g.val + (tileLane hh d').val := fun d' => by
    have hd' := d'.isLt
    show 64 * (i2.val / 64) + d'.val = 256 * g.val + (64 * hh.val + d'.val)
    omega
  have eq : (fun d' => Qb (ix3 (0 : Fin 1) p (tileLane hh d'))) = fun d' => Q (ix3 b i1 (Attn.headLane i2 d')) :=
    funext fun d' => hQ p (tileLane hh d') i1 (Attn.headLane i2 d') h1 (hlane d')
  have ek : (fun j d' => keyCache Kb (ix2 j (tileLane hh d'))) = fun j d' => K (ix3 b j (Attn.headLane i2 d')) :=
    funext fun j => funext fun d' => (keyCache_apply Kb j (tileLane hh d')).trans (hK j (tileLane hh d') (Attn.headLane i2 d') (hlane d'))
  have ev : (fun j => valCache Vb (ix2 j (tileLane hh d))) = fun j => V (ix3 b j i2) :=
    funext fun j => (valCache_apply Vb j (tileLane hh d)).trans (hV j (tileLane hh d) i2 h2)
  rw [eq, ek, ev]

end Cert.KernelIdeal.Body

end
-- ==== Proof.KernelValue.lean ====
/-
  The kernel's result array.

  Grid point t = 12·b + 4·g + r (b < 4 batches, g < 3 head groups, r < 4 query tiles) fetches the query tile at block
  (b, r, g) of the query array and the key and value blocks at (b, 0, g), and writes the output tile back at (b, r, g).
  The caches it works from were filled at the first point of its run, 4·(t / 4), which has the same b and g. So the
  tile it writes back is the block of the array-level attention output at (b, r, g); the 48 tiles are disjoint and cover
  the [4, 2048, 768] result, which therefore ends as `Attn.out` of the three argument arrays.
-/
import proofs.«168366_j12953621365329_2_alg».proof.Proof.Carried
import proofs.«168366_j12953621365329_2_alg».proof.Proof.BlockValue
import proofs.«168366_j12953621365329_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable (m : (ℓ : Loc nD τ sig) → Buf (Elt Ideal) ℓ) (ρ : Dev nD → PrngReg)

/-- The printed index maps over the 48 points: queries and output at block (t / 12, t % 4, t / 4 % 3), keys and values
    at (t / 12, 0, t / 4 % 3). -/
theorem idx_facts : ∀ t : Fin cfg0.N,
    win0_0.index t (0 : Fin 3) = t.val / 12 ∧ win0_0.index t (1 : Fin 3) = t.val % 4 ∧ win0_0.index t (2 : Fin 3) = t.val / 4 % 3
    ∧ win0_1.index t (0 : Fin 3) = t.val / 12 ∧ win0_1.index t (1 : Fin 3) = 0 ∧ win0_1.index t (2 : Fin 3) = t.val / 4 % 3
    ∧ win0_2.index t (0 : Fin 3) = t.val / 12 ∧ win0_2.index t (1 : Fin 3) = 0 ∧ win0_2.index t (2 : Fin 3) = t.val / 4 % 3
    ∧ win0_3.index t (0 : Fin 3) = t.val / 12 ∧ win0_3.index t (1 : Fin 3) = t.val % 4 ∧ win0_3.index t (2 : Fin 3) = t.val / 4 % 3 :=
  (by decide +kernel : ∀ t : Fin grid0.N, _)

/-- Every output block is some point's. -/
theorem idx_onto : ∀ (q0 : Fin 4) (q1 : Fin 4) (q2 : Fin 3), ∃ t : Fin cfg0.N, win0_3.index t = ![q0.val, q1.val, q2.val] :=
  (by decide +kernel : ∀ (q0 : Fin 4) (q1 : Fin 4) (q2 : Fin 3), ∃ t : Fin grid0.N, win0_3.index t = ![q0.val, q1.val, q2.val])

theorem lt48 (t : Fin cfg0.N) : t.val < 48 := lt_of_lt_of_eq t.isLt (show cfg0.N = 48 from N_0)

/-- The batch, head group and query tile of a point. -/
def batchOf (t : Fin cfg0.N) : Fin 4 := ⟨t.val / 12, by have := lt48 t; omega⟩
def groupOf (t : Fin cfg0.N) : Fin 3 := ⟨t.val / 4 % 3, by omega⟩
def tileOf (t : Fin cfg0.N) : Fin 4 := ⟨t.val % 4, by omega⟩

/-- The query tile of point `t`, entry by entry, in the query array. -/
theorem qblk_read (c : Dev nD) (t : Fin cfg0.N) (p : Fin 512) (l : Fin 256) (i1 : Fin 2048) (i2 : Fin 768)
    (h1 : i1.val = 512 * (tileOf t).val + p.val) (h2 : i2.val = 256 * (groupOf t).val + l.val) :
    iblk m c 0 t (ix3 (0 : Fin 1) p l) = V m c main_arg1 (ix3 (batchOf t) i1 i2) := by
  obtain ⟨e0, e1, e2, -⟩ := idx_facts t
  show V m c main_arg1 (((cfg0.win 0).blk t).view.emb (ix3 (0 : Fin 1) p l)) = V m c main_arg1 _
  refine congrArg (V m c main_arg1) (funext fun a => Fin.ext ?_)
  match a with
  | ⟨0, _⟩ => show win0_0.index t (0 : Fin 3) * 1 + 1 * 0 = t.val / 12; omega
  | ⟨1, _⟩ => show win0_0.index t (1 : Fin 3) * 512 + 1 * p.val = i1.val; rw [h1]; show _ = 512 * (t.val % 4) + p.val; omega
  | ⟨2, _⟩ => show win0_0.index t (2 : Fin 3) * 256 + 1 * l.val = i2.val; rw [h2]; show _ = 256 * (t.val / 4 % 3) + l.val; omega

/-- The key block fetched at the first point of `t`'s run, entry by entry, in the key array: same batch, same lanes. -/
theorem kblk_read (c : Dev nD) (t : Fin cfg0.N) (j : Fin 2048) (l : Fin 256) (i2 : Fin 768)
    (h2 : i2.val = 256 * (groupOf t).val + l.val) :
    iblk m c 1 (lead t.val t.isLt) (ix3 (0 : Fin 1) j l) = V m c main_arg0 (ix3 (batchOf t) j i2) := by
  obtain ⟨-, -, -, e0, e1, e2, -⟩ := idx_facts (lead t.val t.isLt)
  have hl : (lead t.val t.isLt).val = 4 * (t.val / 4) := rfl
  have ht := lt48 t
  show V m c main_arg0 (((cfg0.win 1).blk (lead t.val t.isLt)).view.emb (ix3 (0 : Fin 1) j l)) = V m c main_arg0 _
  refine congrArg (V m c main_arg0) (funext fun a => Fin.ext ?_)
  match a with
  | ⟨0, _⟩ => show win0_1.index (lead t.val t.isLt) (0 : Fin 3) * 1 + 1 * 0 = t.val / 12; omega
  | ⟨1, _⟩ => show win0_1.index (lead t.val t.isLt) (1 : Fin 3) * 2048 + 1 * j.val = j.val; omega
  | ⟨2, _⟩ => show win0_1.index (lead t.val t.isLt) (2 : Fin 3) * 256 + 1 * l.val = i2.val; rw [h2]; show _ = 256 * (t.val / 4 % 3) + l.val; omega

/-- The value block fetched there, likewise. -/
theorem vblk_read (c : Dev nD) (t : Fin cfg0.N) (j : Fin 2048) (l : Fin 256) (i2 : Fin 768)
    (h2 : i2.val = 256 * (groupOf t).val + l.val) :
    iblk m c 2 (lead t.val t.isLt) (ix3 (0 : Fin 1) j l) = V m c main_arg2 (ix3 (batchOf t) j i2) := by
  obtain ⟨-, -, -, -, -, -, e0, e1, e2, -⟩ := idx_facts (lead t.val t.isLt)
  have hl : (lead t.val t.isLt).val = 4 * (t.val / 4) := rfl
  have ht := lt48 t
  show V m c main_arg2 (((cfg0.win 2).blk (lead t.val t.isLt)).view.emb (ix3 (0 : Fin 1) j l)) = V m c main_arg2 _
  refine congrArg (V m c main_arg2) (funext fun a => Fin.ext ?_)
  match a with
  | ⟨0, _⟩ => show win0_2.index (lead t.val t.isLt) (0 : Fin 3) * 1 + 1 * 0 = t.val / 12; omega
  | ⟨1, _⟩ => show win0_2.index (lead t.val t.isLt) (1 : Fin 3) * 2048 + 1 * j.val = j.val; omega
  | ⟨2, _⟩ => show win0_2.index (lead t.val t.isLt) (2 : Fin 3) * 256 + 1 * l.val = i2.val; rw [h2]; show _ = 256 * (t.val / 4 % 3) + l.val; omega

/-- The result: the attention output of the key, query and value arrays as launched. -/
abbrev result (c : Dev nD) : Buf (Elt Ideal) ((c : Thread nD τ).loc main_v0) :=
  Attn.out (V m c main_arg0) (V m c main_arg1) (V m c main_arg2)

/-- WHAT POINT `t` WRITES BACK is block `t` of the result. -/
theorem flushed_eq (c : Dev nD) (t : Fin cfg0.N) :
    (dats m 0 c).flushed 3 t = ((cfg0.win 3).blk t).view.read (Elt Ideal) (result m c) := by
  rw [Cert.KernelIdeal.Value.flushed3, out_eq]
  obtain ⟨-, -, -, -, -, -, -, -, -, e0, e1, e2⟩ := idx_facts t
  have ht := lt48 t
  funext y
  obtain ⟨u, p, l, rfl⟩ : ∃ (u : Fin 1) (p : Fin 512) (l : Fin 256), y = ix3 u p l := ⟨y 0, y 1, y 2, eq_ix3 y⟩
  have hp := p.isLt
  have hl := l.isLt
  have hi : ((cfg0.win 3).blk t).view.emb (ix3 u p l)
      = ix3 (batchOf t) (⟨512 * (tileOf t).val + p.val, by show 512 * (t.val % 4) + p.val < 2048; omega⟩ : Fin 2048)
          (⟨256 * (groupOf t).val + l.val, by show 256 * (t.val / 4 % 3) + l.val < 768; omega⟩ : Fin 768) :=
    funext fun a => Fin.ext (by
      have hu : u.val = 0 := by omega
      match a with
      | ⟨0, _⟩ => show win0_3.index t (0 : Fin 3) * 1 + 1 * u.val = t.val / 12; omega
      | ⟨1, _⟩ => show win0_3.index t (1 : Fin 3) * 512 + 1 * p.val = 512 * (t.val % 4) + p.val; omega
      | ⟨2, _⟩ => show win0_3.index t (2 : Fin 3) * 256 + 1 * l.val = 256 * (t.val / 4 % 3) + l.val; omega)
  show blockOut (iblk m c 0 t) (keyCache (iblk m c 1 (lead t.val t.isLt))) (valCache (iblk m c 2 (lead t.val t.isLt))) (ix3 u p l)
      = result m c (((cfg0.win 3).blk t).view.emb (ix3 u p l))
  rw [hi]
  exact tile_entry (iblk m c 0 t) (iblk m c 1 (lead t.val t.isLt)) (iblk m c 2 (lead t.val t.isLt))
    (V m c main_arg0) (V m c main_arg1) (V m c main_arg2) (batchOf t) (groupOf t) (tileOf t)
    (fun p l i1 i2 h1 h2 => qblk_read m c t p l i1 i2 h1 h2)
    (fun j l i2 h2 => kblk_read m c t j l i2 h2)
    (fun j l i2 h2 => vblk_read m c t j l i2 h2)
    u p l _ _ rfl rfl

/-- An index of the result is in point `t`'s block iff each coordinate is in the block's range on its axis. -/
theorem mem_blk (t : Fin cfg0.N) (i : S4x2048x768.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v0).slice (win0_3.rect t)).set ↔ _
  rw [View.set_slice_whole, Rect.mem_set_unit]
  exact Iff.rfl

/-- The 48 output tiles cover the result: entry (b, n, l) is in the tile of block (b, n / 512, l / 256). -/
theorem cover (i : S4x2048x768.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 768 := (i 2).isLt
  obtain ⟨t, ht⟩ := idx_onto ⟨(i 0).val, hi0⟩ ⟨(i 1).val / 512, by omega⟩ ⟨(i 2).val / 256, by omega⟩
  have q0 : win0_3.index t (0 : Fin 3) = (i 0).val := congrFun ht 0
  have q1 : win0_3.index t (1 : Fin 3) = (i 1).val / 512 := congrFun ht 1
  have q2 : win0_3.index t (2 : Fin 3) = (i 2).val / 256 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- THE ARRAY after the run. -/
theorem final (c : Dev nD) : (dats m 0 c).arrAt 3 cfg0.N = result m c :=
  (dats m 0 c).arrAt_eq_of_cover 3 (result m c) (fun t _ => flushed_eq m c t) cover

/-- The run, read: the result array at the attention output of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Body

end
-- ==== Proof.RefValue.lean ====
/-
  The reference, read entry by entry over the extended reals.

  The reference splits the last axis of each of the three arrays into (head, depth), moves the head axis in front of the
  row axis, and then works on [4, 12, 2048, 64] arrays: scores by a batched product over the depth, the row maximum, the
  exponentials, their sum plus ε, the weighted values by a batched product over the keys, the quotient; at the end it
  undoes the layout. Read at (b, h, n, ·) each stage is the corresponding piece of `Attn.entry` for query row (b, n) of
  head h, and entry (b, n, l) of the result is stage `out` at (b, l / 64, n, l % 64).
-/
import proofs.«168366_j12953621365329_2_alg».proof.Proof.Gen.ReferenceIdeal.Read
import proofs.«168366_j12953621365329_2_alg».proof.Proof.Attn
import Idealize.ShloMosaic.PureOps.Reduce

noncomputable section

open Idealize.ShloMosaic Idealize.SL.Sem Idealize.ShloMosaic.ValueIdx

namespace Cert.ReferenceIdeal.RefValue

open Cert.ReferenceIdeal Cert.ReferenceIdeal.Gen Cert.ReferenceIdeal.Read

/-- An argument array: [4, 2048, 768] extended reals. -/
abbrev Arr : Type := (⟨S4x2048x768, .f32⟩ : BufTy).Contents (Elt Ideal)

/-- Lane `d` of head `h`. -/
def hl (h : Fin 12) (d : Fin 64) : Fin 768 := ⟨64 * h.val + d.val, by have := h.isLt; have := d.isLt; omega⟩

/-- The split of the last axis followed by the move of the head axis reads (b, h, n, d) at (b, n, 64·h + d). -/
theorem split_q (b : Fin 4) (h : Fin 12) (n : Fin 2048) (d : Fin 64) :
    idx_main_v0 (idx_main_v1 (ix4 b h n d)) = ix3 b n (hl h d) :=
  funext fun a => Fin.ext (by
    have := b.isLt; have := h.isLt; have := n.isLt; have := d.isLt
    match a with
    | ⟨0, _⟩ => show (((b.val * 2048 + n.val) * 12 + h.val) * 64 + d.val) / 1572864 = b.val; omega
    | ⟨1, _⟩ => show (((b.val * 2048 + n.val) * 12 + h.val) * 64 + d.val) / 768 % 2048 = n.val; omega
    | ⟨2, _⟩ => show (((b.val * 2048 + n.val) * 12 + h.val) * 64 + d.val) % 768 = 64 * h.val + d.val; omega)
theorem split_k (b : Fin 4) (h : Fin 12) (n : Fin 2048) (d : Fin 64) :
    idx_main_v2 (idx_main_v3 (ix4 b h n d)) = ix3 b n (hl h d) :=
  funext fun a => Fin.ext (by
    have := b.isLt; have := h.isLt; have := n.isLt; have := d.isLt
    match a with
    | ⟨0, _⟩ => show (((b.val * 2048 + n.val) * 12 + h.val) * 64 + d.val) / 1572864 = b.val; omega
    | ⟨1, _⟩ => show (((b.val * 2048 + n.val) * 12 + h.val) * 64 + d.val) / 768 % 2048 = n.val; omega
    | ⟨2, _⟩ => show (((b.val * 2048 + n.val) * 12 + h.val) * 64 + d.val) % 768 = 64 * h.val + d.val; omega)
theorem split_v (b : Fin 4) (h : Fin 12) (n : Fin 2048) (d : Fin 64) :
    idx_main_v4 (idx_main_v5 (ix4 b h n d)) = ix3 b n (hl h d) :=
  funext fun a => Fin.ext (by
    have := b.isLt; have := h.isLt; have := n.isLt; have := d.isLt
    match a with
    | ⟨0, _⟩ => show (((b.val * 2048 + n.val) * 12 + h.val) * 64 + d.val) / 1572864 = b.val; omega
    | ⟨1, _⟩ => show (((b.val * 2048 + n.val) * 12 + h.val) * 64 + d.val) / 768 % 2048 = n.val; omega
    | ⟨2, _⟩ => show (((b.val * 2048 + n.val) * 12 + h.val) * 64 + d.val) % 768 = 64 * h.val + d.val; omega)

variable (x0 x1 x2 : Arr)

/-- The scaled queries. -/
theorem scaledQ_apply (b : Fin 4) (h : Fin 12) (n : Fin 2048) (d : Fin 64) :
    val_main_v7 (F := Ideal) x1 (ix4 b h n d) = x1 (ix3 b n (hl h d)) * Attn.scale := by
  rw [val_main_v7_apply, val_main_v1_apply, val_main_v0_apply, val_main_v6_apply, val_main_cst_apply, split_q]
  rfl

/-- The keys and the values in the head-major layout. -/
theorem keys_apply (b : Fin 4) (h : Fin 12) (j : Fin 2048) (d : Fin 64) :
    val_main_v3 (F := Ideal) x0 (ix4 b h j d) = x0 (ix3 b j (hl h d)) := by
  rw [val_main_v3_apply, val_main_v2_apply, split_k]

theorem vals_apply (b : Fin 4) (h : Fin 12) (j : Fin 2048) (d : Fin 64) :
    val_main_v5 (F := Ideal) x2 (ix4 b h j d) = x2 (ix3 b j (hl h d)) := by
  rw [val_main_v5_apply, val_main_v4_apply, split_v]

/-- Query row (b, n) of head h, and head h's keys of batch b. -/
abbrev qrow (b : Fin 4) (h : Fin 12) (n : Fin 2048) : Fin 64 → EReal := fun d => x1 (ix3 b n (hl h d))
abbrev keysOf (b : Fin 4) (h : Fin 12) : Fin 2048 → Fin 64 → EReal := fun j d => x0 (ix3 b j (hl h d))

/-- The scores. -/
theorem scores_apply (b : Fin 4) (h : Fin 12) (n : Fin 2048) (j : Fin 2048) :
    val_main_v8 (F := Ideal) x0 x1 (ix4 b h n j) = Attn.score (qrow x1 b h n) (keysOf x0 b h) j := by
  rw [val_main_v8_apply]
  unfold Attn.score
  refine Finset.sum_congr rfl fun d _ => ?_
  have el : lidx_main_v8 (ix4 b h n j) d = ix4 b h n d :=
    funext fun a => by match a with | ⟨0, _⟩ => rfl | ⟨1, _⟩ => rfl | ⟨2, _⟩ => rfl | ⟨3, _⟩ => rfl
  have er : ridx_main_v8 (ix4 b h n j) d = ix4 b h j d :=
    funext fun a => by match a with | ⟨0, _⟩ => rfl | ⟨1, _⟩ => rfl | ⟨2, _⟩ => rfl | ⟨3, _⟩ => rfl
  rw [el, er, scaledQ_apply, keys_apply]

/-- The row maximum. -/
theorem top_apply (b : Fin 4) (h : Fin 12) (n : Fin 2048) :
    val_main_v9 (F := Ideal) x0 x1 (ix3 b h n) = Attn.top (qrow x1 b h n) (keysOf x0 b h) := by
  unfold val_main_v9 Attn.top
  have hr : S4x12x2048x2048.Reduces [3] S4x12x2048 := by decide
  have key := Host.reduce_eq_fold_single (FloatOps.maximumf (F := Ideal) (φ := .f32)) (val_main_v8 (F := Ideal) x0 x1)
    (val_main_cst_0 (F := Ideal)) reducesTo_S4x12x2048x2048_S4x12x2048_d3 hr h_S_ (ix3 b h n)
  refine key.trans ?_
  refine congrArg (Finset.fold max Attn.negInf · Finset.univ) (funext fun (j : Fin 2048) => ?_)
  have e : hr.lift (ix3 b h n) j = ix4 b h n j :=
    funext fun a => Fin.ext (by match a with | ⟨0, _⟩ => rfl | ⟨1, _⟩ => rfl | ⟨2, _⟩ => rfl | ⟨3, _⟩ => rfl)
  show val_main_v8 (F := Ideal) x0 x1 (hr.lift (ix3 b h n) j) = _
  rw [e]
  exact scores_apply x0 x1 b h n j

/-- The weights. -/
theorem weights_apply (b : Fin 4) (h : Fin 12) (n : Fin 2048) (j : Fin 2048) :
    val_main_v13 (F := Ideal) x0 x1 (ix4 b h n j) = Attn.weight (qrow x1 b h n) (keysOf x0 b h) j := by
  rw [val_main_v13_apply, val_main_v12_apply, val_main_v11_apply, val_main_v10_apply]
  have e : idx_main_v10 (idx_main_v11 (ix4 b h n j)) = ix3 b h n :=
    funext fun a => by match a with | ⟨0, _⟩ => rfl | ⟨1, _⟩ => rfl | ⟨2, _⟩ => rfl
  rw [e, top_apply, scores_apply]
  rfl

/-- The denominator. -/
theorem denom_apply (b : Fin 4) (h : Fin 12) (n : Fin 2048) (d : Fin 64) :
    val_main_v19 (F := Ideal) x0 x1 (ix4 b h n d)
      = (∑ j : Fin 2048, Attn.weight (qrow x1 b h n) (keysOf x0 b h) j) + Attn.eps := by
  rw [val_main_v19_apply, val_main_v18_apply, val_main_v16_apply, val_main_v17_apply, val_main_cst_2_apply, val_main_v15_apply,
    val_main_cst_1_apply]
  have e : idx_main_v16 (idx_main_v19 (ix4 b h n d)) = ix3 b h n :=
    funext fun a => by match a with | ⟨0, _⟩ => rfl | ⟨1, _⟩ => rfl | ⟨2, _⟩ => rfl
  have ek : ∀ j : Fin 2048, idx_main_v15 (ix3 b h n) j = ix4 b h n j := fun j =>
    funext fun a => by match a with | ⟨0, _⟩ => rfl | ⟨1, _⟩ => rfl | ⟨2, _⟩ => rfl | ⟨3, _⟩ => rfl
  rw [e]
  simp only [ek, weights_apply]
  show Ideal.ofBits .f32 0x00000000#32 + _ + Ideal.ofBits .f32 0x322BCC77#32 = _
  rw [Ideal.ofBits_zero_f32, zero_add]

/-- The weighted values. -/
theorem numer_apply (b : Fin 4) (h : Fin 12) (n : Fin 2048) (d : Fin 64) :
    val_main_v14 (F := Ideal) x0 x1 x2 (ix4 b h n d)
      = ∑ j : Fin 2048, Attn.weight (qrow x1 b h n) (keysOf x0 b h) j * x2 (ix3 b j (hl h d)) := by
  rw [val_main_v14_apply]
  refine Finset.sum_congr rfl fun j _ => ?_
  have el : lidx_main_v14 (ix4 b h n d) j = ix4 b h n j :=
    funext fun a => by match a with | ⟨0, _⟩ => rfl | ⟨1, _⟩ => rfl | ⟨2, _⟩ => rfl | ⟨3, _⟩ => rfl
  have er : ridx_main_v14 (ix4 b h n d) j = ix4 b h j d :=
    funext fun a => by match a with | ⟨0, _⟩ => rfl | ⟨1, _⟩ => rfl | ⟨2, _⟩ => rfl | ⟨3, _⟩ => rfl
  rw [el, er, weights_apply, vals_apply]

/-- The quotient: one attention entry, in the head-major layout. -/
theorem quot_apply (b : Fin 4) (h : Fin 12) (n : Fin 2048) (d : Fin 64) :
    val_main_v20 (F := Ideal) x0 x1 x2 (ix4 b h n d)
      = Attn.entry (qrow x1 b h n) (keysOf x0 b h) (fun j => x2 (ix3 b j (hl h d))) := by
  rw [val_main_v20_apply, numer_apply, denom_apply]
  rfl

/-- The layout undone: entry (b, n, l) of the result is the quotient at (b, l / 64, n, l % 64). -/
theorem unsplit (b : Fin 4) (n : Fin 2048) (l : Fin 768) :
    idx_main_v21 (idx_main_v22 (ix3 b n l)) = ix4 b (⟨l.val / 64, by have := l.isLt; omega⟩ : Fin 12) n (⟨l.val % 64, by omega⟩ : Fin 64) :=
  funext fun a => Fin.ext (by
    have := b.isLt; have := n.isLt; have := l.isLt
    match a with
    | ⟨0, _⟩ => show ((b.val * 2048 + n.val) * 768 + l.val) / 1572864 = b.val; omega
    | ⟨1, _⟩ => show ((b.val * 2048 + n.val) * 768 + l.val) / 64 % 12 = l.val / 64; omega
    | ⟨2, _⟩ => show ((b.val * 2048 + n.val) * 768 + l.val) / 768 % 2048 = n.val; omega
    | ⟨3, _⟩ => show ((b.val * 2048 + n.val) * 768 + l.val) % 64 = l.val % 64; omega)

/-- THE REFERENCE'S RESULT is the attention output of its three arguments (keys, queries, values, in that order). -/
theorem result_eq : val_main_v22 (F := Ideal) x0 x1 x2 = Attn.out x0 x1 x2 := by
  funext i
  obtain ⟨b, n, l, rfl⟩ : ∃ (b : Fin 4) (n : Fin 2048) (l : Fin 768), i = ix3 b n l := ⟨i 0, i 1, i 2, eq_ix3 i⟩
  rw [val_main_v22_apply, val_main_v21_apply, unsplit, quot_apply]
  have hll := l.isLt
  have e1 : ∀ d : Fin 64, hl (⟨l.val / 64, by omega⟩ : Fin 12) d = Attn.headLane l d := fun d => rfl
  have e2 : hl (⟨l.val / 64, by omega⟩ : Fin 12) (⟨l.val % 64, by omega⟩ : Fin 64) = l :=
    Fin.ext (by show 64 * (l.val / 64) + l.val % 64 = l.val; omega)
  rw [e2]
  show Attn.entry _ _ _ = Attn.entry (fun d => x1 (ix3 b n (Attn.headLane l d))) (fun j d => x0 (ix3 b j (Attn.headLane l d)))
    (fun j => x2 (ix3 b j l))
  rfl

end Cert.ReferenceIdeal.RefValue

end
-- ==== Proof.lean ====
/-
  Softmax attention over 12 heads, tiled: the kernel against its plain reference, over the extended reals.

  Arguments: keys, queries, values, each [4, 2048, 768] with the 12 heads of depth 64 packed along the last axis. Entry
  (b, i, l) of the result attends query row (b, i) of head l / 64 to the 2048 keys of batch b in that head — scores
  Σ_d (q_d · 2⁻³) · k_j,d, their maximum M, weights exp(s_j − M) — and returns Σ_j w_j · v_j,l / (Σ_j w_j + ε)
  (`Attn.out`, Proof/Attn.lean).

  The kernel walks a grid of 4 batches × 3 groups of four heads × 4 tiles of 512 query rows, keeps the group's keys and
  values cached between the four tiles of a (batch, group) pair, and for each of the tile's four heads forms the scores
  by a matrix product, the row maximum, the exponentials, their row sum plus ε, the weighted values by a second matrix
  product, and the quotient; the reference does the same on whole head-major arrays. Over the extended reals every one
  of these steps is the textbook operation on both sides (a change of float format is the identity, a product into a
  zero accumulator is the sum of products, a reduction is the sum or the maximum over the axis), with the same scale,
  the same ε and the same −∞ spelt by the same words, so the two results agree entry by entry; no law of arithmetic
  beyond 0 + x = x is used, and finiteness of the inputs is not needed for the values.

  Proof/Block, Pieces, Carried: what a grid point leaves behind and why the caches are right. Proof/HeadValue,
  BlockValue, KernelValue: the kernel's result array is `Attn.out` of its arguments. Proof/RefValue: so is the
  reference's. The frames are the generated ones; the ideal pass rewrote nothing.
-/
import proofs.«168366_j12953621365329_2_alg».proof.Defs
import proofs.«168366_j12953621365329_2_alg».proof.Proof.Gen.Kernel
import proofs.«168366_j12953621365329_2_alg».proof.Proof.Gen.Kernel.Frame
import proofs.«168366_j12953621365329_2_alg».proof.Proof.Gen.KernelIdeal
import proofs.«168366_j12953621365329_2_alg».proof.Proof.Gen.KernelIdeal.Frame
import proofs.«168366_j12953621365329_2_alg».proof.Proof.Gen.KernelIdeal.Value
import proofs.«168366_j12953621365329_2_alg».proof.Proof.Gen.ReferenceIdeal
import proofs.«168366_j12953621365329_2_alg».proof.Proof.Gen.ReferenceIdeal.Run
import proofs.«168366_j12953621365329_2_alg».proof.Proof.Gen.ReferenceIdeal.Read
import proofs.«168366_j12953621365329_2_alg».proof.Proof.Gen.Pre_finite_inputs
import proofs.«168366_j12953621365329_2_alg».proof.Proof.KernelValue
import proofs.«168366_j12953621365329_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel read over the extended reals is the kernel's own text: nothing was rewritten. -/
theorem preserves : Cert.preserves_Kernel_KernelIdeal := trivial

/-- From memories that agree on the three arguments both programs end with the attention output of those arguments:
    the kernel's result array by `Body.run`, the reference's by its run and `RefValue.result_eq`. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
